-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S8192x768 : Shape := ⟨2, ![8192, 768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S8192x768 : S_.BroadcastsInDim S8192x768 (![] : Fin 0 → Fin S8192x768.rank)
  reducesTo_S8192x768_S_d0_1 : S8192x768.ReducesTo [0, 1] S_

variable [Facts]

def fn {F : FTy → Type} [FloatOps F] (main_arg0 : FVec F S4x8192x768 .f32) (main_arg1 : FVec F S8192x768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  main_v8
-- ==== Kernel.lean ====
abbrev S4x8192x768 : Shape := ⟨3, ![4, 8192, 768]⟩
abbrev S8192x768 : Shape := ⟨2, ![8192, 768]⟩
abbrev S1x2048x768 : Shape := ⟨3, ![1, 2048, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S4x8192x768, .f32⟩
  | .local _ .vmem, ⟨0, _⟩ => ⟨S1x2048x768, .f32⟩
  | .local _ .vmem, ⟨1, _⟩ => ⟨S1x2048x768, .f32⟩
  | .local _ .vmem, ⟨2, _⟩ => ⟨S2048x768, .f32⟩
  | .local _ .vmem, ⟨3, _⟩ => ⟨S2048x768, .f32⟩
  | .local _ .vmem, ⟨4, _⟩ => ⟨S1x2048x768, .f32⟩
  | .local _ .vmem, ⟨5, _⟩ => ⟨S1x2048x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2048x768_S1x2048x768_0_0_0 : ∀ a, (![0, 0, 0] : Fin 3 → Nat) a + S1x2048x768.size a ≤ S1x2048x768.size a
  h_S1x2048x768 : 0 < S1x2048x768.numel
  inb_S2048x768_S2048x768_0_0 : ∀ a, (![0, 0] : Fin 2 → Nat) a + S2048x768.size a ≤ S2048x768.size a
  h_S2048x768 : 0 < S2048x768.numel
  shapeCasts_S2048x768_S1x2048x768 : S2048x768.ShapeCasts S1x2048x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S4x8192x768.size a
  hwx0_0 : ∀ i : grid0.Coords, EltTy.bits .f32 = 32 ∨ (Rect.block (s := S4x8192x768) S1x2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S8192x768.size a
  hwx0_1 : ∀ i : grid0.Coords, EltTy.bits .f32 = 32 ∨ (Rect.block (s := S8192x768) S2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x768.size a ≤ S4x8192x768.size a
  hwx0_2 : ∀ i : grid0.Coords, EltTy.bits .f32 = 32 ∨ (Rect.block (s := S4x8192x768) S1x2048x768.size (cc0_transform_2 i) (hinb0_2 i)).WholeWords (EltTy.packing .f32)

variable [Facts₀]

abbrev win0_0 : Pipeline.Window sig grid0 :=
  Pipeline.Window.ofSpec (Memref.whole main_arg0) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S8192x768 : Shape := ⟨2, ![8192, 768]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x768 : Shape := ⟨3, ![1, 8192, 768]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x768, .f32⟩
  | .hbm, ⟨22, _⟩ => ⟨S8192x768, .i1⟩
  | .hbm, ⟨23, _⟩ => ⟨S_, .f32⟩
  | .hbm, ⟨24, _⟩ => ⟨S8192x768, .f32⟩
  | .hbm, ⟨25, _⟩ => ⟨S8192x768, .f32⟩
  | .hbm, ⟨26, _⟩ => ⟨S1x8192x768, .f32⟩
  | .hbm, ⟨27, _⟩ => ⟨S4x8192x768, .f32⟩
  | .hbm, ⟨28, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x768_0 : S8192.BroadcastsInDim S8192x768 (![0] : Fin 1 → Fin S8192x768.rank)
  bcast_S_S8192x768 : S_.BroadcastsInDim S8192x768 (![] : Fin 0 → Fin S8192x768.rank)
  bcast_S8192x768_S1x8192x768_1_2 : S8192x768.BroadcastsInDim S1x8192x768 (![1, 2] : Fin 2 → Fin S1x8192x768.rank)
  bcast_S1x8192x768_S4x8192x768_0_1_2 : S1x8192x768.BroadcastsInDim S4x8192x768 (![0, 1, 2] : Fin 3 → Fin S4x8192x768.rank)
  gather_S8192x768_S8192x1_S8192x768_1_0_n_n_0_1_1768_wf : GatherDims.WF S8192x768 S8192x1 S8192x768 [1] [0] [] [0] [] 1 ![1, 768]

variable [Facts₀]

def gather_S8192x768_S8192x1_S8192x768_1_0_n_n_0_1_1768 : GatherDims S8192x768 S8192x1 S8192x768 where
  offsetDims := [1]
  collapsedSliceDims := [0]
  operandBatchingDims := []
  startIndicesBatchingDims := []
  startIndexMap := [0]
  indexVectorDim := 1
  sliceSizes := ![1, 768]
  wf := gather_S8192x768_S8192x1_S8192x768_1_0_n_n_0_1_1768_wf

class Facts : Prop extends Facts₀ where

variable [Facts]
-- ==== Proof.Spec.lean ====
/-
  The function both programs compute. An array x of 4 batch slices, each 8192 rows by 768 columns, and a table pe of
  8192 rows by 768 columns: every batch slice of x has the table added to it entry by entry,

      out (b, s, d) = x (b, s, d) + pe (s, d).

  Only one addition per entry is involved, so the statement is made for any float values.
-/
import Idealize.ShloMosaic.PureOps
import Idealize.ShloMosaic.Lib.ValueIdx

namespace Cert.PosEncoding

open Idealize.ShloMosaic Idealize.ShloMosaic.ValueIdx

variable {F : FTy → Type} [FloatOps F]

/-- The table entry an array position reads: its row and its column, the batch coordinate dropped. -/
abbrev tablePos (i : (⟨3, ![4, 8192, 768]⟩ : Shape).Idx) : (⟨2, ![8192, 768]⟩ : Shape).Idx :=
  ix2 (⟨(i 1).val, (i 1).isLt⟩ : Fin 8192) (⟨(i 2).val, (i 2).isLt⟩ : Fin 768)

/-- x with the table added to every batch slice. -/
def addTable (x : (⟨3, ![4, 8192, 768]⟩ : Shape).Idx → Elt F .f32) (pe : (⟨2, ![8192, 768]⟩ : Shape).Idx → Elt F .f32) :
    (⟨3, ![4, 8192, 768]⟩ : Shape).Idx → Elt F .f32 :=
  fun i => FloatOps.addf (x i) (pe (tablePos i))

/-- At the position (b, s, d) it is x (b, s, d) + pe (s, d). -/
theorem addTable_apply (x : (⟨3, ![4, 8192, 768]⟩ : Shape).Idx → Elt F .f32) (pe : (⟨2, ![8192, 768]⟩ : Shape).Idx → Elt F .f32)
    (b : Fin 4) (s : Fin 8192) (d : Fin 768) :
    addTable x pe (ix3 b s d) = FloatOps.addf (x (ix3 b s d)) (pe (ix2 s d)) := rfl

end Cert.PosEncoding
-- ==== Proof.KernelValue.lean ====
/-
  The kernel's result array as one function of its two argument arrays.

  The kernel walks a 4 by 4 grid. At the point (s, b) it is handed rows 2048·s … 2048·s + 2047 of batch slice b of x
  and the same rows of the table pe, adds them entry by entry, and writes the sum back to the same rows of batch slice b
  of the result. So what a point writes back is that block of "x with the table added to every batch slice"; the sixteen
  blocks tile the whole array (batch slice b and row r lie in the block of the point (r / 2048, b)); hence the result
  array is that function everywhere.
-/
import proofs.«165205_g22016002359764_cont_8to1_854_6_alg».proof.Proof.Gen.KernelIdeal.Value
import proofs.«165205_g22016002359764_cont_8to1_854_6_alg».proof.Proof.Spec

noncomputable section

namespace Cert.KernelIdeal.WholeArray

open Cert.KernelIdeal Cert.KernelIdeal.Gen Cert.KernelIdeal.Value Idealize.ShloMosaic Idealize.ShloMosaic.TcCoe Idealize.SL.Sem
open Idealize.ShloMosaic.Pipeline (Dat)
open Cert.PosEncoding

variable {F : FTy → Type} [FloatOps F]
variable (m : (ℓ : Loc nD τ sig) → Buf (Elt F) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- Where the three windows' blocks sit at a grid point, decided over the sixteen points: the block of x and the block
    of the result are the same block (batch slice, row block, the one column block); the block of pe is that row
    block; and the result's block indices range over 4 batch slices and 4 row blocks. -/
theorem block_positions : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 2) = win0_2.index t (1 : Fin 3)
    ∧ win0_1.index t (1 : Fin 2) = 0
    ∧ win0_2.index t (0 : Fin 3) ≤ 3
    ∧ win0_2.index t (1 : Fin 3) ≤ 3
    ∧ win0_2.index t (2 : Fin 3) = 0 :=
  (by decide +kernel : ∀ t : Fin grid0.N, _)

/-- Every (batch slice, row block) is some point's block of the result. -/
theorem every_block : ∀ (q0 : Fin 4) (q1 : Fin 4), ∃ t : Fin cfg0.N, win0_2.index t = ![q0.val, q1.val, 0] :=
  (by decide +kernel : ∀ (q0 : Fin 4) (q1 : Fin 4), ∃ t : Fin grid0.N, win0_2.index t = ![q0.val, q1.val, 0])

/-- What a point writes back is its block of x with the table added. -/
theorem flushed_eq (c : Dev nD) (t : Fin cfg0.N) :
    (dats m 0 c).flushed 2 t
      = ((cfg0.win 2).blk t).view.read (Elt F) (addTable (V m c main_arg0) (V m c main_arg1)) := by
  rw [flushed2]
  unfold out0_2
  funext j
  show View.canon [⟨r0_0, k0_pay1 (View.ld (iblk m c 0 t) r0_0) (View.ld (iblk m c 1 t) r0_1)⟩] j
      = addTable (V m c main_arg0) (V m c main_arg1) (((cfg0.win 2).blk t).view.emb j)
  refine (canon2_eq (View.ld (iblk m c 0 t) r0_0) (View.ld (iblk m c 1 t) r0_1) j).trans ?_
  show FloatOps.addf (View.ld (iblk m c 0 t) r0_0 (ix2_0 j)) (View.ld (iblk m c 1 t) r0_1 (ix2_1 j))
      = FloatOps.addf (V m c main_arg0 (((cfg0.win 2).blk t).view.emb j))
          (V m c main_arg1 (tablePos (((cfg0.win 2).blk t).view.emb j)))
  rw [View.ld_unit_zero (S := S1x2048x768) zeros3, View.ld_unit_zero (S := S2048x768) zeros2]
  show FloatOps.addf (V m c main_arg0 (((cfg0.win 0).blk t).view.emb (ix2_0 j)))
        (V m c main_arg1 (((cfg0.win 1).blk t).view.emb (ix2_1 j)))
      = FloatOps.addf (V m c main_arg0 (((cfg0.win 2).blk t).view.emb j))
          (V m c main_arg1 (tablePos (((cfg0.win 2).blk t).view.emb j)))
  obtain ⟨e0, e1, e2, e3, e4, e5, e6, e7⟩ := block_positions t
  have hj0 : (j 0).val < 1 := (j 0).isLt
  have hj1 : (j 1).val < 2048 := (j 1).isLt
  have hj2 : (j 2).val < 768 := (j 2).isLt
  have h0 : ((cfg0.win 0).blk t).view.emb (ix2_0 j) = ((cfg0.win 2).blk t).view.emb j := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 2048 + 1 * (j 1).val = win0_2.index t (1 : Fin 3) * 2048 + 1 * (j 1).val; omega
    | ⟨2, _⟩ => show win0_0.index t (2 : Fin 3) * 768 + 1 * (j 2).val = win0_2.index t (2 : Fin 3) * 768 + 1 * (j 2).val; omega
  have h1 : ((cfg0.win 1).blk t).view.emb (ix2_1 j) = tablePos (((cfg0.win 2).blk t).view.emb j) := by
    funext a; apply Fin.ext
    match a with
    | ⟨0, _⟩ => show win0_1.index t (0 : Fin 2) * 2048 + 1 * (j 1).val = win0_2.index t (1 : Fin 3) * 2048 + 1 * (j 1).val; omega
    | ⟨1, _⟩ => show win0_1.index t (1 : Fin 2) * 768 + 1 * (j 2).val = win0_2.index t (2 : Fin 3) * 768 + 1 * (j 2).val; omega
  rw [h0, h1]

/-- A position of the result lies in a point's block exactly when each coordinate lies in the block's range. -/
theorem mem_block (t : Fin cfg0.N) (i : S4x8192x768.Idx) :
    i ∈ ((cfg0.win 2).blk t).view.set ↔ ∀ a : Fin 3, win0_2.index t a * S1x2048x768.size a ≤ (i a).val
      ∧ (i a).val < win0_2.index t a * S1x2048x768.size a + S1x2048x768.size a := by
  show i ∈ ((View.whole main_v0).slice (win0_2.rect t)).set ↔ _
  rw [View.set_slice_whole, Rect.mem_set_unit]
  exact Iff.rfl

/-- Every position of the result lies in some point's block: batch slice b, row r is in the block (b, r / 2048). -/
theorem covered (i : S4x8192x768.Idx) :
    ∃ t : Fin cfg0.N, (cfg0.win 2).flush t = true ∧ i ∈ ((cfg0.win 2).blk t).view.set := by
  have hi0 : (i 0).val < 4 := (i 0).isLt
  have hi1 : (i 1).val < 8192 := (i 1).isLt
  have hi2 : (i 2).val < 768 := (i 2).isLt
  obtain ⟨t, ht⟩ := every_block ⟨(i 0).val, hi0⟩ ⟨(i 1).val / 2048, by omega⟩
  have q0 : win0_2.index t (0 : Fin 3) = (i 0).val := congrFun ht 0
  have q1 : win0_2.index t (1 : Fin 3) = (i 1).val / 2048 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 768 ≤ (i 2).val ∧ (i 2).val < win0_2.index t (2 : Fin 3) * 768 + 768; omega

/-- The result array after the run is x with the table added to every batch slice. -/
theorem final (c : Dev nD) :
    (dats m 0 c).arrAt 2 cfg0.N
      = addTable (m ((c : Thread nD τ).loc main_arg0)) (m ((c : Thread nD τ).loc main_arg1)) :=
  (dats m 0 c).arrAt_eq_of_cover 2 (addTable (V m c main_arg0) (V m c main_arg1)) (fun t _ => flushed_eq m c t) covered

/-- Every weakly fair execution of the kernel's program terminates with the result array at x with the table added,
    and the arguments unchanged. -/
theorem run : θ_run defs (onTc (τ := τ) (main (F := F))) ⟨m, fun _ => 0, ρ⟩ fun r => ∀ c : Dev nD,
      r.2.mem ((c : Thread nD τ).loc main_v0)
        = addTable (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.WholeArray

end
-- ==== Proof.RefRun.lean ====
/-
  The reference program's run, read back.

  The reference adds to every batch slice of x the rows of pe taken at the positions 0, 1, …, 8191. jax's `take` is
  outlined: it wraps a negative position by adding the extent, gathers the rows at the wrapped positions (the gather
  clamps them into the table), and keeps a gathered row only where the wrapped position lies in [0, 8191], putting
  a filler elsewhere. Here the program's operations are listed in order with the outlined calls unfolded, the program is
  shown to be that list, and what the result buffer holds after the list is stated as one term of the two argument
  arrays.
-/
import proofs.«165205_g22016002359764_cont_8to1_854_6_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pure term -/

/-- A position wrapped: the extent 8192 added where the position is negative. -/
def wrapped (p : IVec S8192 32) : IVec S8192 32 :=
  select (cmpi .slt p (broadcastInDim S8192 ![] bcast_S_S8192 (constantI S_ 32 0#32)))
    (addi p (broadcastInDim S8192 ![] bcast_S_S8192 (constantI S_ 32 8192#32))) p

/-- The wrapped positions as a column of start indices. -/
def startCol (p : IVec S8192 32) : IVec S8192x1 32 :=
  broadcastInDim S8192x1 ![0] bcast_S8192_S8192x1_0 (wrapped p)

/-- Per position, whether the wrapped position lies in [0, 8191]: the conjunction of the two comparisons, reduced by
    `and` from 1 over the column's one entry. -/
def inTable (p : IVec S8192 32) : IVec S8192 1 :=
  Host.reduce IntOp.andi
    (andi (cmpi .sge (startCol p) (broadcastInDim S8192x1 ![] bcast_S_S8192x1 (constantI S_ 32 0#32)))
      (cmpi .sle (startCol p)
        (broadcastInDim S8192x1 ![0, 1] bcast_S1x1_S8192x1_0_1
          (broadcastInDim S1x1 ![1] bcast_S1_S1x1_1 (constantI S1 32 8191#32)))))
    (constantI S_ 1 1#1) reducesTo_S8192x1_S8192_d1 h_S_

/-- The rows of the table at the positions: the gathered row where the position is in the table, a filler elsewhere. -/
def takeRows (pe : FVec F S8192x768 .f32) (p : IVec S8192 32) : FVec F S8192x768 .f32 :=
  select (broadcastInDim S8192x768 ![0] bcast_S8192_S8192x768_0 (inTable p))
    (Host.gather gather_S8192x768_S8192x1_S8192x768_1_0_n_n_0_1_1768 pe (startCol p))
    (broadcastInDim S8192x768 ![] bcast_S_S8192x768 (constant S_ .f32 0x7FC00000#32))

/-- The reference's result: x plus the rows taken at 0, 1, …, 8191, repeated over the batch axis. -/
def result (x : FVec F S4x8192x768 .f32) (pe : FVec F S8192x768 .f32) : FVec F S4x8192x768 .f32 :=
  addf x (broadcastInDim S4x8192x768 ![0, 1, 2] bcast_S1x8192x768_S4x8192x768_0_1_2
    (broadcastInDim S1x8192x768 ![1, 2] bcast_S8192x768_S1x8192x768_1_2 (takeRows pe (iotaInDim S8192 32 0))))

/-! ## The program as a list of operations -/

/-- The program's operations in order, the two outlined calls unfolded at their call sites. -/
abbrev ops : List (HloOp τ sig (Elt F)) :=
  [ nullary main_v0 (iotaInDim S8192 32 0),
    TRef.nullary main_call0.c (constantI S_ 32 0#32),
    TRef.unary main_call0.c main_call0.v0 (broadcastInDim S8192 ![] bcast_S_S8192),
    TRef.binary (.of main_v0) main_call0.v0 main_call0.v1 (cmpi .slt),
    TRef.nullary main_call0.c_0 (constantI S_ 32 8192#32),
    TRef.unary main_call0.c_0 main_call0.v2 (broadcastInDim S8192 ![] bcast_S_S8192),
    TRef.binary (.of main_v0) main_call0.v2 main_call0.v3 addi,
    TRef.ternary main_call0.v1 main_call0.v3 (.of main_v0) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8192x768_S8192x1_S8192x768_1_0_n_n_0_1_1768 x i),
    TRef.unary main_call0.v12 main_call0.v14 (broadcastInDim S8192x768 ![0] bcast_S8192_S8192x768_0),
    TRef.nullary main_call0.cst (constant S_ .f32 0x7FC00000#32),
    TRef.unary main_call0.cst main_call0.v15 (broadcastInDim S8192x768 ![] bcast_S_S8192x768),
    TRef.ternary main_call0.v14 main_call0.v13 main_call0.v15 main_call0.v16 select,
    unary main_v1 main_v2 (broadcastInDim S1x8192x768 ![1, 2] bcast_S8192x768_S1x8192x768_1_2 : (⟨S8192x768, .f32⟩ : BufTy).Contents (Elt F) → (⟨S1x8192x768, .f32⟩ : BufTy).Contents (Elt F)),
    unary main_v2 main_v3 (broadcastInDim S4x8192x768 ![0, 1, 2] bcast_S1x8192x768_S4x8192x768_0_1_2 : (⟨S1x8192x768, .f32⟩ : BufTy).Contents (Elt F) → (⟨S4x8192x768, .f32⟩ : BufTy).Contents (Elt F)),
    binary main_arg0 main_v3 main_v4 (addf : (⟨S4x8192x768, .f32⟩ : BufTy).Contents (Elt F) → (⟨S4x8192x768, .f32⟩ : BufTy).Contents (Elt F) → (⟨S4x8192x768, .f32⟩ : BufTy).Contents (Elt F)) ]

set_option maxRecDepth 2048 in
/-- The program is that straight line: the outlined functions unfolded at their calls, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub ..⟩

/-- Every weakly fair execution of the program terminates with each buffer at the fold of the operations over the
    launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibTypedRefs.lean ====
/-
  Transport along a typed reference's type equation, removed.

  A typed reference carries an equation "the buffer's type is T", and a value at type T is moved to the buffer's own
  type, and back, along that equation. Whatever the equation's proof, the two transports undo each other; and a
  transported value equals any value it is heterogeneously equal to, so once the reference is a literal whose type
  computes to T the transport can be dropped on both the reading and the writing side. Proved for an arbitrary typed
  reference by replacing T with the buffer's type.
-/
import Idealize.ShloMosaic.Lib.StableHlo

namespace Cert.Lib.TypedRefs

open Idealize.ShloMosaic Idealize.ShloMosaic.StableHlo

variable {sig : RefSig} {Val : EltTy → Type} {T : BufTy}

/-- Moving a value to the buffer's type and back gives the value. -/
theorem ofBuf_toBuf (x : TRef sig T) (v : T.Contents Val) : x.ofBuf (x.toBuf v) = v := by
  obtain ⟨r, e, hd, hu⟩ := x
  subst e
  rfl

/-- Buffer contents read at the value's type are any value they are heterogeneously equal to. -/
theorem ofBuf_eq (x : TRef sig T) (w : x.ref.ty.Contents Val) (v : T.Contents Val) (h : HEq w v) : x.ofBuf w = v := by
  obtain ⟨r, e, hd, hu⟩ := x
  subst e
  exact eq_of_heq h

/-- A value moved to the buffer's type is any buffer contents it is heterogeneously equal to. -/
theorem toBuf_eq (x : TRef sig T) (v : T.Contents Val) (w : x.ref.ty.Contents Val) (h : HEq v w) : x.toBuf v = w := by
  obtain ⟨r, e, hd, hu⟩ := x
  subst e
  exact eq_of_heq h

end Cert.Lib.TypedRefs
-- ==== Proof.RefTerm.lean ====
/-
  What the reference's buffers hold after its operations, as terms of the argument arrays: the result buffer holds
  "x plus the rows of the table taken at 0, 1, …, 8191, repeated over the batch axis", and the two argument buffers
  hold what they were launched with.
-/
import proofs.«165205_g22016002359764_cont_8to1_854_6_alg».proof.Proof.RefRun
import proofs.«165205_g22016002359764_cont_8to1_854_6_alg».proof.Proof.LibTypedRefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A typed reference to the positions' buffer, the table's buffer or the looked-up rows' buffer is a literal buffer of
    the stated type, so moving contents along its type equation changes nothing. -/
theorem ofBuf_positions (h1 h2 h3) (w : (⟨S8192, .i32⟩ : BufTy).Contents (Elt F)) :
    (TRef.of main_v0 h1 h2 h3 : TRef sig ⟨S8192, .i32⟩).ofBuf w = w :=
  Cert.Lib.TypedRefs.ofBuf_eq _ _ _ HEq.rfl
theorem ofBuf_table (h1 h2 h3) (w : (⟨S8192x768, .f32⟩ : BufTy).Contents (Elt F)) :
    (TRef.of main_arg1 h1 h2 h3 : TRef sig ⟨S8192x768, .f32⟩).ofBuf w = w :=
  Cert.Lib.TypedRefs.ofBuf_eq _ _ _ HEq.rfl
theorem toBuf_rows (h1 h2 h3) (v : (⟨S8192x768, .f32⟩ : BufTy).Contents (Elt F)) :
    (TRef.of main_v1 h1 h2 h3 : TRef sig ⟨S8192x768, .f32⟩).toBuf v = v :=
  Cert.Lib.TypedRefs.toBuf_eq _ _ _ HEq.rfl

set_option maxHeartbeats 400000 in
/-- The fold of the operations at the result buffer is the pure term: each operation's result is read at the buffer
    it writes; a value written through a typed reference and read back through it is the value; and the typed references
    of the outlined calls are literal buffers of the stated types. -/
theorem after_result (V : Valuation τ sig (Elt F)) :
    after ops V (main_v4 : DevRef τ sig) = result (V (main_arg0 : DevRef τ sig)) (V (main_arg1 : DevRef τ sig)) := by
  after_results_simp
  simp only [Cert.Lib.TypedRefs.ofBuf_toBuf, ofBuf_positions, ofBuf_table, toBuf_rows]
  unfold result takeRows inTable startCol wrapped
  rfl

theorem after_arg0 (V : Valuation τ sig (Elt F)) :
    after ops V (main_arg0 : DevRef τ sig) = V (main_arg0 : DevRef τ sig) := by
  after_results_simp

theorem after_arg1 (V : Valuation τ sig (Elt F)) :
    after ops V (main_arg1 : DevRef τ sig) = V (main_arg1 : DevRef τ sig) := by
  after_results_simp

/-- Every weakly fair execution of the reference terminates with its result buffer at the pure term of the launch
    contents of its arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (after_result _),
      (h c main_arg0).trans (after_arg0 _),
      (h c main_arg1).trans (after_arg1 _)⟩)
    (run_ops m ρ)

end Cert.ReferenceIdeal.RefRun

end
-- ==== Proof.LibHostIndex.lean ====
/-
  THE HOST'S GATHER AND SCATTER-ADD READ AT AN INDEX, for the dimension numbers that row indexing of a matrix and
  cell indexing of a matrix lower to. General lemmas over the extents `N`, `M`, `R`, `C`: nothing here mentions a program.

  * Row scatter-add (a segment sum, `x.at[idx].add(upd)` on rows): operand `[N, C]`, scatter indices `[R, 1]`, updates
    `[R, C]`. Row `e` of the updates lands on row `idx[e, 0]` of the operand, the index read as a signed integer and NOT
    clamped, the column kept; a row whose index is outside `[0, N)` is dropped. So element `(i, c)` of the result is
    `x (i, c)` plus the sum of `upd (e, c)` over the rows `e` whose index is `i` (`scatterAdd_rows_apply`).
  * Cell scatter-add (`x.at[rows, cols].add(v)` on a matrix): operand `[N, M]`, scatter indices `[R, 2]`, updates `[R]`.
    Update `e` lands on cell `(idx[e, 0], idx[e, 1])`, both read signed and not clamped; so element `(i, j)` of the result is
    `x (i, j)` plus the sum of `upd e` over the `e` whose index pair is `(i, j)` (`scatterAdd_cells_apply`).
  * Vector scatter-add (`x.at[idx].add(v)` on a vector): operand `[N]`, scatter indices `[R, 1]`, updates `[R]`: element `i`
    of the result is `x i` plus the sum of `upd e` over the `e` whose signed index is `i` (`scatterAdd_vec_apply`).
  * Row gather (`x[idx]` on a matrix): operand `[N, C]`, start indices `[R, 1]`, result `[R, C]`. Row `e` of the result is
    the operand's row `idx[e, 0]`, the index read signed and CLAMPED into `[0, N − 1]` (`gather_rows_apply`); and the
    same for a vector operand `[N]` (`gather_vec_apply`).

  Each scatter lemma has the same two steps. First the landing place of one update index is computed coordinate by
  coordinate from the dimension numbers (the start is the signed index on the axis the map names, the window coordinate
  is the update's own coordinate on a window axis and zero on an inserted one), which says exactly when an update lands
  on a given element (`…_resultIdx_iff`). Then the sum over the update indices that land there is re-indexed by the
  update's row alone, the other coordinate being forced.
-/
import Idealize.ShloMosaic.PureOps.Ideal
import Idealize.ShloMosaic.Lib.ValueIdx

noncomputable section

open scoped BigOperators

namespace Cert.Lib.HostIndex

open Idealize.ShloMosaic Idealize.ShloMosaic.ValueIdx

/-! ## Row scatter-add: operand `[N, C]`, scatter indices `[R, 1]`, updates `[R, C]` -/

/-- The dimension numbers of a scatter of whole rows: the updates' axis 1 is the window axis (it goes to the operand's
    axis 1), the operand's axis 0 is inserted and is the one the scatter index names. Their conditions `wf` are decided
    on a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable {N R C w : Nat} (wf : ScatterDims.WF ⟨2, ![N, C]⟩ ⟨2, ![R, 1]⟩ ⟨2, ![R, C]⟩ [1] [0] [0] 1)

/-- On the row axis the window of update `(e, c')` starts at the signed index `idx[e, 0]` … -/
theorem rowScatter_start0 (idx : IVec ⟨2, ![R, 1]⟩ w) (e : Fin R) (c' : Fin C) :
    (rowScatterDims N R C wf).start (ix2 e c') idx 0 = (idx (ix2 e 0)).toInt := by
  unfold ScatterDims.start
  rw [dif_pos (show (0 : Fin 2) ∈ (rowScatterDims N R C wf).scatterDimsToOperandDims from List.mem_singleton.mpr rfl)]
  have hsi : (rowScatterDims N R C wf).siIdx (ix2 e c') ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem rowScatter_start1 (idx : IVec ⟨2, ![R, 1]⟩ w) (e : Fin R) (c' : Fin C) :
    (rowScatterDims N R C wf).start (ix2 e c') idx 1 = 0 := by
  unfold ScatterDims.start
  rw [dif_neg (show (1 : Fin 2) ∉ ([0] : List (Fin 2)) by decide)]

/-- The row axis is inserted: the window coordinate there is `0` … -/
theorem rowScatter_window0 (e : Fin R) (c' : Fin C) :
    (rowScatterDims N R C wf).window (ix2 e c') 0 = 0 := by
  have h : (0 : Fin 2) ∉ (rowScatterDims N R C wf).sKept := by
    show (0 : Fin 2) ∉ (List.finRange 2).filter (· ∉ ([0] : List (Fin 2)))
    decide
  unfold ScatterDims.window
  rw [dif_neg h]

/-- … and on the column axis it is the update's own column. -/
theorem rowScatter_window1 (e : Fin R) (c' : Fin C) :
    (rowScatterDims N R C wf).window (ix2 e c') 1 = c'.val := by
  unfold ScatterDims.window
  have h : (1 : Fin 2) ∈ (rowScatterDims N R C wf).sKept := by
    show (1 : Fin 2) ∈ (List.finRange 2).filter (· ∉ ([0] : List (Fin 2)))
    decide
  rw [dif_pos h]
  rfl

/-- WHERE AN UPDATE LANDS: update `(e, c')` lands on element `(i, c)` exactly when its signed index is `i` and its
    column is `c`. (When the index is outside `[0, N)` the update lands nowhere, and the right side fails for every `i`.) -/
theorem rowScatter_resultIdx_iff (idx : IVec ⟨2, ![R, 1]⟩ w) (e : Fin R) (c' : Fin C) (i : Fin N) (c : Fin C) :
    (rowScatterDims N R C wf).resultIdx? (ix2 e c') idx = some (ix2 i c)
      ↔ (idx (ix2 e 0)).toInt = (i.val : Int) ∧ c' = c := by
  have hs0 := rowScatter_start0 wf idx e c'
  have hs1 := rowScatter_start1 wf idx e c'
  have hw0 := rowScatter_window0 wf e c'
  have hw1 := rowScatter_window1 wf e c'
  have hi : i.val < N := i.isLt
  have hc' : c'.val < C := c'.isLt
  unfold ScatterDims.resultIdx?
  split
  · rename_i h
    rw [Option.some.injEq]
    constructor
    · intro hf
      have h0 : ((rowScatterDims N R C wf).start (ix2 e c') idx 0 + ((rowScatterDims N R C wf).window (ix2 e c') 0 : Int)).toNat = i.val :=
        congrArg (fun f : (⟨2, ![N, C]⟩ : Shape).Idx => (f 0).val) hf
      have h1 : ((rowScatterDims N R C wf).start (ix2 e c') idx 1 + ((rowScatterDims N R C wf).window (ix2 e c') 1 : Int)).toNat = c.val :=
        congrArg (fun f : (⟨2, ![N, C]⟩ : Shape).Idx => (f 1).val) hf
      have g0 := (h 0).1
      rw [hs0, hw0] at h0 g0
      rw [hs1, hw1] at h1
      refine ⟨by omega, Fin.ext (by omega)⟩
    · rintro ⟨ht, rfl⟩
      funext a; refine Fin.ext ?_
      match a with
      | ⟨0, _⟩ =>
        show ((rowScatterDims N R C wf).start (ix2 e c') idx 0 + ((rowScatterDims N R C wf).window (ix2 e c') 0 : Int)).toNat = i.val
        rw [hs0, hw0]; omega
      | ⟨1, _⟩ =>
        show ((rowScatterDims N R C wf).start (ix2 e c') idx 1 + ((rowScatterDims N R C wf).window (ix2 e c') 1 : Int)).toNat = c'.val
        rw [hs1, hw1]; omega
  · rename_i h
    refine iff_of_false (by simp) ?_
    rintro ⟨ht, rfl⟩
    apply h
    intro a
    match a with
    | ⟨0, _⟩ =>
      show 0 ≤ (rowScatterDims N R C wf).start (ix2 e c') idx 0 + ((rowScatterDims N R C wf).window (ix2 e c') 0 : Int)
        ∧ (rowScatterDims N R C wf).start (ix2 e c') idx 0 + ((rowScatterDims N R C wf).window (ix2 e c') 0 : Int) < (N : Int)
      rw [hs0, hw0]; omega
    | ⟨1, _⟩ =>
      show 0 ≤ (rowScatterDims N R C wf).start (ix2 e c') idx 1 + ((rowScatterDims N R C wf).window (ix2 e c') 1 : Int)
        ∧ (rowScatterDims N R C wf).start (ix2 e c') idx 1 + ((rowScatterDims N R C wf).window (ix2 e c') 1 : Int) < (C : Int)
      rw [hs1, hw1]; omega

/-- THE ROW SCATTER-ADD READ AT `(i, c)`: the operand's element plus the sum of column `c` of the update rows whose index,
    read signed, is `i`. The sum over the update indices `(e, c')` that land on `(i, c)` is split by coordinates; for each
    row `e` the inner sum over `c'` has the one term `c' = c`, present exactly when the row's index is `i`. -/
theorem scatterAdd_rows_apply (x : (⟨2, ![N, C]⟩ : Shape).Idx → EReal) (idx : IVec ⟨2, ![R, 1]⟩ w)
    (upd : (⟨2, ![R, C]⟩ : Shape).Idx → EReal) (i : Fin N) (c : Fin C) :
    Ideal.hostScatterAdd (rowScatterDims N R C wf) x idx upd (ix2 i c)
      = x (ix2 i c) + ∑ e ∈ Finset.univ.filter (fun e : Fin R => (idx (ix2 e 0)).toInt = (i.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases hq : (idx (ix2 e 0)).toInt = (i.val : Int)
  · simp only [hq, true_and, if_true]
    rw [Finset.sum_ite_eq']
    simp
  · simp [hq]

end RowScatter

/-! ## Cell scatter-add: operand `[N, M]`, scatter indices `[R, 2]`, updates `[R]` -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of a scatter of single cells: the updates have no window axis, both operand axes are
    inserted, and the scatter index's two components name the operand's axes 0 and 1 in order. Their conditions `wf`
    are decided on a program's literal shapes. -/
abbrev cellScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section CellScatter
variable {N M R w : Nat} (wf : ScatterDims.WF ⟨2, ![N, M]⟩ ⟨2, ![R, 2]⟩ ⟨1, ![R]⟩ [] [0, 1] [0, 1] 1)

/-- On the row axis update `e` starts at the signed index `idx[e, 0]` … -/
theorem cellScatter_start0 (idx : IVec ⟨2, ![R, 2]⟩ w) (e : Fin R) :
    (cellScatterDims N M R wf).start (ix1 e) idx 0 = (idx (ix2 e 0)).toInt := by
  have hm : (0 : Fin 2) ∈ (cellScatterDims N M R wf).scatterDimsToOperandDims := by
    show (0 : Fin 2) ∈ ([0, 1] : List (Fin 2))
    decide
  unfold ScatterDims.start
  rw [dif_pos hm]
  have hsi : (cellScatterDims N M R wf).siIdx (ix1 e) ⟨List.idxOf (0 : Fin 2) (cellScatterDims N M R wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and on the column axis at the signed index `idx[e, 1]`. -/
theorem cellScatter_start1 (idx : IVec ⟨2, ![R, 2]⟩ w) (e : Fin R) :
    (cellScatterDims N M R wf).start (ix1 e) idx 1 = (idx (ix2 e 1)).toInt := by
  have hm : (1 : Fin 2) ∈ (cellScatterDims N M R wf).scatterDimsToOperandDims := by
    show (1 : Fin 2) ∈ ([0, 1] : List (Fin 2))
    decide
  unfold ScatterDims.start
  rw [dif_pos hm]
  have hsi : (cellScatterDims N M R wf).siIdx (ix1 e) ⟨List.idxOf (1 : Fin 2) (cellScatterDims N M R wf).scatterDimsToOperandDims,
      List.idxOf_lt_length_iff.2 hm⟩ = ix2 e 1 := by
    funext b; refine Fin.ext ?_
    match b with
    | ⟨0, _⟩ => rfl
    | ⟨1, _⟩ => rfl
  rw [hsi]

/-- Both operand axes are inserted: the window coordinate is `0` on each. -/
theorem cellScatter_window (e : Fin R) (a : Fin 2) :
    (cellScatterDims N M R wf).window (ix1 e) a = 0 := by
  have h : a ∉ (cellScatterDims N M R wf).sKept := by
    show a ∉ (List.finRange 2).filter (· ∉ ([0, 1] : List (Fin 2)))
    revert a; decide
  unfold ScatterDims.window
  rw [dif_neg h]

/-- WHERE AN UPDATE LANDS: update `e` lands on cell `(i, j)` exactly when its signed index pair is `(i, j)`. -/
theorem cellScatter_resultIdx_iff (idx : IVec ⟨2, ![R, 2]⟩ w) (e : Fin R) (i : Fin N) (j : Fin M) :
    (cellScatterDims N M R wf).resultIdx? (ix1 e) idx = some (ix2 i j)
      ↔ (idx (ix2 e 0)).toInt = (i.val : Int) ∧ (idx (ix2 e 1)).toInt = (j.val : Int) := by
  have hs0 := cellScatter_start0 wf idx e
  have hs1 := cellScatter_start1 wf idx e
  have hw0 := cellScatter_window wf e 0
  have hw1 := cellScatter_window wf e 1
  have hi : i.val < N := i.isLt
  have hj : j.val < M := j.isLt
  unfold ScatterDims.resultIdx?
  split
  · rename_i h
    rw [Option.some.injEq]
    constructor
    · intro hf
      have h0 : ((cellScatterDims N M R wf).start (ix1 e) idx 0 + ((cellScatterDims N M R wf).window (ix1 e) 0 : Int)).toNat = i.val :=
        congrArg (fun f : (⟨2, ![N, M]⟩ : Shape).Idx => (f 0).val) hf
      have h1 : ((cellScatterDims N M R wf).start (ix1 e) idx 1 + ((cellScatterDims N M R wf).window (ix1 e) 1 : Int)).toNat = j.val :=
        congrArg (fun f : (⟨2, ![N, M]⟩ : Shape).Idx => (f 1).val) hf
      have g0 := (h 0).1
      have g1 := (h 1).1
      rw [hs0, hw0] at h0 g0
      rw [hs1, hw1] at h1 g1
      exact ⟨by omega, by omega⟩
    · rintro ⟨ht0, ht1⟩
      funext a; refine Fin.ext ?_
      match a with
      | ⟨0, _⟩ =>
        show ((cellScatterDims N M R wf).start (ix1 e) idx 0 + ((cellScatterDims N M R wf).window (ix1 e) 0 : Int)).toNat = i.val
        rw [hs0, hw0]; omega
      | ⟨1, _⟩ =>
        show ((cellScatterDims N M R wf).start (ix1 e) idx 1 + ((cellScatterDims N M R wf).window (ix1 e) 1 : Int)).toNat = j.val
        rw [hs1, hw1]; omega
  · rename_i h
    refine iff_of_false (by simp) ?_
    rintro ⟨ht0, ht1⟩
    apply h
    intro a
    match a with
    | ⟨0, _⟩ =>
      show 0 ≤ (cellScatterDims N M R wf).start (ix1 e) idx 0 + ((cellScatterDims N M R wf).window (ix1 e) 0 : Int)
        ∧ (cellScatterDims N M R wf).start (ix1 e) idx 0 + ((cellScatterDims N M R wf).window (ix1 e) 0 : Int) < (N : Int)
      rw [hs0, hw0]; omega
    | ⟨1, _⟩ =>
      show 0 ≤ (cellScatterDims N M R wf).start (ix1 e) idx 1 + ((cellScatterDims N M R wf).window (ix1 e) 1 : Int)
        ∧ (cellScatterDims N M R wf).start (ix1 e) idx 1 + ((cellScatterDims N M R wf).window (ix1 e) 1 : Int) < (M : Int)
      rw [hs1, hw1]; omega

/-- THE CELL SCATTER-ADD READ AT `(i, j)`: the operand's element plus the sum of the updates whose index pair, read
    signed, is `(i, j)`. -/
theorem scatterAdd_cells_apply (x : (⟨2, ![N, M]⟩ : Shape).Idx → EReal) (idx : IVec ⟨2, ![R, 2]⟩ w)
    (upd : (⟨1, ![R]⟩ : Shape).Idx → EReal) (i : Fin N) (j : Fin M) :
    Ideal.hostScatterAdd (cellScatterDims N M R wf) x idx upd (ix2 i j)
      = x (ix2 i j) + ∑ e ∈ Finset.univ.filter (fun e : Fin R =>
          (idx (ix2 e 0)).toInt = (i.val : Int) ∧ (idx (ix2 e 1)).toInt = (j.val : Int)), upd (ix1 e) := by
  unfold Ideal.hostScatterAdd
  congr 1
  rw [Finset.sum_filter, Finset.sum_filter, sum_idx1]
  refine Finset.sum_congr rfl fun e _ => ?_
  simp only [cellScatter_resultIdx_iff]

end CellScatter

/-! ## Vector scatter-add: operand `[N]`, scatter indices `[R, 1]`, updates `[R]` -/

/-- The dimension numbers of `x.at[idx].add(v)` on a vector with the indices as a column: the updates have no window
    axis, the operand's one axis is inserted and named by the scatter index. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section VecScatter
variable {N R w : Nat} (wf : ScatterDims.WF ⟨1, ![N]⟩ ⟨2, ![R, 1]⟩ ⟨1, ![R]⟩ [] [0] [0] 1)

/-- Update `e` starts at the signed index `idx[e, 0]` … -/
theorem vecScatter_start (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, the axis being inserted, its window coordinate is `0`. -/
theorem vecScatter_window (e : Fin R) :
    (vecScatterDims N R wf).window (ix1 e) 0 = 0 := by
  have h : (0 : Fin 1) ∉ (vecScatterDims N R wf).sKept := by
    show (0 : Fin 1) ∉ (List.finRange 1).filter (· ∉ ([0] : List (Fin 1)))
    decide
  unfold ScatterDims.window
  rw [dif_neg h]

/-- WHERE AN UPDATE LANDS: update `e` lands on element `i` exactly when its signed index is `i`. -/
theorem vecScatter_resultIdx_iff (idx : IVec ⟨2, ![R, 1]⟩ w) (e : Fin R) (i : Fin N) :
    (vecScatterDims N R wf).resultIdx? (ix1 e) idx = some (ix1 i) ↔ (idx (ix2 e 0)).toInt = (i.val : Int) := by
  have hs0 := vecScatter_start wf idx e
  have hw0 := vecScatter_window wf e
  have hi : i.val < N := i.isLt
  unfold ScatterDims.resultIdx?
  split
  · rename_i h
    rw [Option.some.injEq]
    constructor
    · intro hf
      have h0 : ((vecScatterDims N R wf).start (ix1 e) idx 0 + ((vecScatterDims N R wf).window (ix1 e) 0 : Int)).toNat = i.val :=
        congrArg (fun f : (⟨1, ![N]⟩ : Shape).Idx => (f 0).val) hf
      have g0 := (h 0).1
      rw [hs0, hw0] at h0 g0
      omega
    · intro ht
      funext a; refine Fin.ext ?_
      match a with
      | ⟨0, _⟩ =>
        show ((vecScatterDims N R wf).start (ix1 e) idx 0 + ((vecScatterDims N R wf).window (ix1 e) 0 : Int)).toNat = i.val
        rw [hs0, hw0]; omega
  · rename_i h
    refine iff_of_false (by simp) ?_
    intro ht
    apply h
    intro a
    match a with
    | ⟨0, _⟩ =>
      show 0 ≤ (vecScatterDims N R wf).start (ix1 e) idx 0 + ((vecScatterDims N R wf).window (ix1 e) 0 : Int)
        ∧ (vecScatterDims N R wf).start (ix1 e) idx 0 + ((vecScatterDims N R wf).window (ix1 e) 0 : Int) < (N : Int)
      rw [hs0, hw0]; omega

/-- THE VECTOR SCATTER-ADD READ AT `i`: the operand's element plus the sum of the updates whose index, read signed,
    is `i`. -/
theorem scatterAdd_vec_apply (x : (⟨1, ![N]⟩ : Shape).Idx → EReal) (idx : IVec ⟨2, ![R, 1]⟩ w)
    (upd : (⟨1, ![R]⟩ : Shape).Idx → EReal) (i : Fin N) :
    Ideal.hostScatterAdd (vecScatterDims N R wf) x idx upd (ix1 i)
      = x (ix1 i) + ∑ e ∈ Finset.univ.filter (fun e : Fin R => (idx (ix2 e 0)).toInt = (i.val : Int)), upd (ix1 e) := by
  unfold Ideal.hostScatterAdd
  congr 1
  rw [Finset.sum_filter, Finset.sum_filter, sum_idx1]
  refine Finset.sum_congr rfl fun e _ => ?_
  simp only [vecScatter_resultIdx_iff]

end VecScatter

/-! ## Row gather: operand `[N, C]`, start indices `[R, 1]`, result `[R, C]` -/

/-- The dimension numbers of a gather of whole rows: the result's axis 1 is the offset axis (it reads the operand's
    axis 1, kept whole), the operand's axis 0 is collapsed and is the one the start index names. Their conditions `wf`
    are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section RowGather
variable {α : Type} {N R C w : Nat}

/-- THE ROW GATHER READ AT `(e, c)`: the operand at row `idx[e, 0]`, read signed and clamped into `[0, N − 1]`, and
    column `c`. On the row axis the operand coordinate is the clamped start alone (the axis is collapsed: no offset); on
    the column axis the start is `0` (the map does not name it) and the offset is the result's own column. -/
theorem gather_rows_apply (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = c.val
    rw [GatherDims.batchCoord_eq_zero _ _ _ List.not_mem_nil]
    have hs : (rowGatherDims N R C wf).start (ix2 e c) idx 1 = 0 := by
      unfold GatherDims.start
      rw [dif_neg (show (1 : Fin 2) ∉ ([0] : List (Fin 2)) by decide)]
    have hk : (1 : Fin 2) ∈ (rowGatherDims N R C wf).sKept := by
      show (1 : Fin 2) ∈ (List.finRange 2).filter (· ∉ (([0] : List (Fin 2)) ++ []))
      decide
    have ho : (rowGatherDims N R C wf).offCoord (ix2 e c) 1 = c.val := by
      unfold GatherDims.offCoord
      rw [dif_pos hk]
      rfl
    rw [hs, ho]
    omega

end RowGather

/-! ## Vector gather: operand `[N]`, start indices `[R, 1]`, result `[R]` -/

/-- The dimension numbers of `x[idx]` on a vector with the indices as a column: no offset axis, the operand's one axis
    collapsed and named by the start index. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section VecGather
variable {α : Type} {N R w : Nat}

/-- THE VECTOR GATHER READ AT `e`: the operand at `idx[e, 0]`, read signed and clamped into `[0, N − 1]`. -/
theorem gather_vec_apply (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

end Cert.Lib.HostIndex

end
-- ==== Proof.LibRowGatherDims.lean ====
/-
  A gather's dimension numbers are determined by their seven data fields: a record over the row-gather shapes whose
  offset axis is 1, whose collapsed axis is 0, with no batching axes, whose start index names operand axis 0, whose
  index vector is axis 1 and whose slice is one whole row IS the row gather's record (the remaining field is a proof).

  Hence the host's row gather, for ANY such record and any extents, read at an element: element `(e, c)` of the result is
  the operand at column `c` of the row the index word of `e` names, that word read as a signed integer and clamped into
  `[0, N − 1]`.
-/
import proofs.«165205_g22016002359764_cont_8to1_854_6_alg».proof.Proof.LibHostIndex

noncomputable section

namespace Cert.Lib.HostIndex

open Idealize.ShloMosaic Idealize.ShloMosaic.ValueIdx

theorem eq_rowGatherDims {N R C : Nat} (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) : ∃ wf, d = rowGatherDims N R C wf := by
  obtain ⟨o, cs, ob, sb, sm, iv, ss, wf⟩ := d
  dsimp only at h1 h2 h3 h4 h5 h6 h7
  subst h1 h2 h3 h4 h5 h6 h7
  exact ⟨wf, rfl⟩

/-- THE HOST'S ROW GATHER OF ANY RECORD WITH THE ROW NUMBERS, READ AT `(e, c)`: the operand at the row the index of
    `e` names (signed, clamped into `[0, N − 1]`) and column `c`. -/
theorem hostGather_rows_apply {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (e : Fin R) (c : Fin C) :
    Host.gather d x idx (ix2 e c)
      = x (ix2 ⟨min (idx (ix2 e 0)).toInt.toNat (N - 1), by omega⟩ c) := by
  obtain ⟨wf, rfl⟩ := eq_rowGatherDims d h1 h2 h3 h4 h5 h6 h7
  exact gather_rows_apply hN wf x idx e c

end Cert.Lib.HostIndex

end
-- ==== Proof.LibAllTrue.lean ====
/-
  All-true masks, and signed index words in a range.

  A reduction by `and` over one-bit words that starts from 1 and meets only 1s is 1 (the converse of reading a
  printed `all` back). For a 32-bit index word read signed: a nonnegative word is left alone by the
  wrap "add the extent where negative", and a word below an extent is at most the extent's predecessor.
-/
import Idealize.ShloMosaic.Lib.ReduceAll

namespace Cert.Lib.AllTrue

open Idealize.ShloMosaic

/-- A left fold by `and` from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self, show IntOp.andi (1#1) (1#1) = 1#1 from by decide]
    exact ih fun n hn => h n (List.mem_cons_of_mem _ hn)

/-- A reduction by `and`, from an initial 1, of an array of 1s is 1 at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

/-- A nonnegative index word is not wrapped. -/
theorem wrap_of_nonneg {x y : BitVec 32} (h0 : IntOp.cmpi .sge x 0#32 = 1#1) :
    Scalar.select (IntOp.cmpi .slt x 0#32) y x = x := by
  unfold Scalar.select
  rw [if_neg]
  intro h
  have h1 := IntOp.cmpi_slt.1 h
  have h2 := IntOp.cmpi_sge.1 h0
  omega

/-- Below 253952 is at most 253951. -/
theorem sle_pred {x : BitVec 32} (h : IntOp.cmpi .slt x 253952#32 = 1#1) : IntOp.cmpi .sle x 253951#32 = 1#1 := by
  rw [IntOp.cmpi_sle]
  have h1 := IntOp.cmpi_slt.1 h
  have e1 : (253952#32 : BitVec 32).toInt = 253952 := by decide
  have e2 : (253951#32 : BitVec 32).toInt = 253951 := by decide
  omega

end Cert.Lib.AllTrue
-- ==== Proof.RefValue.lean ====
/-
  The reference's term is "x with the table added to every batch slice".

  The positions handed to the row lookup are 0, 1, …, 8191, as 32-bit words. Read as signed integers they are not
  negative, so the wrap that adds 8192 to a negative position leaves them alone; they lie in [0, 8191], so the lookup's
  "in the table" test holds at every row and the filler is never chosen; and the gather, which clamps a position into
  [0, 8191], reads row s at position s. Hence the rows looked up are the table itself, and repeating them over the
  batch axis and adding x gives x (b, s, d) + pe (s, d) at every position. No property of the float values is used.
-/
import proofs.«165205_g22016002359764_cont_8to1_854_6_alg».proof.Proof.RefRun
import proofs.«165205_g22016002359764_cont_8to1_854_6_alg».proof.Proof.Spec
import proofs.«165205_g22016002359764_cont_8to1_854_6_alg».proof.Proof.LibRowGatherDims
import proofs.«165205_g22016002359764_cont_8to1_854_6_alg».proof.Proof.LibAllTrue
import Idealize.ShloMosaic.Lib.IdealHost
import Idealize.ShloMosaic.Lib.Pipeline.Value
import Idealize.ShloMosaic.Lib.Affine

noncomputable section

namespace Cert.ReferenceIdeal.RefValue

open Cert.ReferenceIdeal Cert.ReferenceIdeal.Gen Cert.ReferenceIdeal.RefRun Idealize.ShloMosaic Idealize.ShloMosaic.ValueIdx
open Cert.PosEncoding

variable {F : FTy → Type} [FloatOps F]

/-- The positions 0, 1, …, 8191 as words. -/
abbrev positions : IVec S8192 32 := iotaInDim S8192 32 0

/-- The word of a number below 8192, read as a signed integer, is the number. -/
theorem toInt_word (n : Nat) (h : n < 8192) : (BitVec.ofNat 32 n).toInt = (n : Int) := by
  have e : (BitVec.ofNat 32 n).toNat = n := by
    rw [BitVec.toNat_ofNat]; exact Nat.mod_eq_of_lt (by omega)
  unfold BitVec.toInt
  rw [e, if_pos (by omega)]

/-- A position's word is not negative, so the wrap leaves it alone. -/
theorem wrapped_positions (s : Fin 8192) : wrapped positions (ix1 s) = BitVec.ofNat 32 s.val := by
  show Scalar.select (IntOp.cmpi .slt (BitVec.ofNat 32 s.val) 0#32) (IntOp.addi (BitVec.ofNat 32 s.val) 8192#32)
      (BitVec.ofNat 32 s.val) = BitVec.ofNat 32 s.val
  refine Cert.Lib.AllTrue.wrap_of_nonneg (IntOp.cmpi_sge.2 ?_)
  rw [toInt_word _ s.isLt]
  show (0 : Int) ≤ _
  omega

/-- The column of start indices holds the position's word at row s. -/
theorem startCol_positions (s : Fin 8192) (z : Fin 1) : startCol positions (ix2 s z) = BitVec.ofNat 32 s.val := by
  unfold startCol
  refine (broadcastInDim_apply _ _ _ (ix2 s z) (ix1 s) (fun a => ?_)).trans (wrapped_positions s)
  match a with
  | ⟨0, _⟩ => rfl

/-- Every position is in the table: 0 ≤ s ≤ 8191. -/
theorem inTable_positions (j : S8192.Idx) : inTable positions j = 1#1 := by
  unfold inTable
  refine Cert.Lib.AllTrue.reduce_andi_one _ _ _ _ j rfl (fun i => ?_)
  obtain ⟨s, z, rfl⟩ : ∃ (s : Fin 8192) (z : Fin 1), i = ix2 s z := ⟨i 0, i 1, eq_ix2 i⟩
  show IntOp.andi (IntOp.cmpi .sge (startCol positions (ix2 s z)) 0#32)
      (IntOp.cmpi .sle (startCol positions (ix2 s z)) 8191#32) = 1#1
  have hs := s.isLt
  rw [startCol_positions,
    IntOp.cmpi_sge.2 (by rw [toInt_word _ s.isLt]; show (0 : Int) ≤ _; omega),
    IntOp.cmpi_sle.2 (by rw [toInt_word _ s.isLt]; show _ ≤ (8191 : Int); omega)]
  decide

/-- The rows looked up at the positions are the table's own rows. -/
theorem takeRows_positions (pe : FVec F S8192x768 .f32) (s : Fin 8192) (d : Fin 768) :
    takeRows pe positions (ix2 s d) = pe (ix2 s d) := by
  unfold takeRows
  rw [select_apply,
    broadcastInDim_apply _ bcast_S8192_S8192x768_0 (inTable positions) (ix2 s d) (ix1 s)
      (fun a => match a with | ⟨0, _⟩ => rfl),
    inTable_positions, select_one,
    Cert.Lib.HostIndex.hostGather_rows_apply (by omega) _ rfl rfl rfl rfl rfl rfl rfl pe (startCol positions) s d]
  refine congrArg pe (congrArg (fun r => ix2 r d) (Fin.ext ?_))
  show min (startCol positions (ix2 s 0)).toInt.toNat (8192 - 1) = s.val
  rw [startCol_positions, toInt_word _ s.isLt, Int.toNat_natCast]
  have hs := s.isLt
  omega

/-- THE REFERENCE'S TERM IS x WITH THE TABLE ADDED TO EVERY BATCH SLICE. -/
theorem result_eq (x : FVec F S4x8192x768 .f32) (pe : FVec F S8192x768 .f32) : result x pe = addTable x pe := by
  funext i
  obtain ⟨b, s, d, rfl⟩ : ∃ (b : Fin 4) (s : Fin 8192) (d : Fin 768), i = ix3 b s d := ⟨i 0, i 1, i 2, eq_ix3 i⟩
  rw [addTable_apply]
  unfold result
  show FloatOps.addf (x (ix3 b s d))
      (broadcastInDim S4x8192x768 ![0, 1, 2] bcast_S1x8192x768_S4x8192x768_0_1_2
        (broadcastInDim S1x8192x768 ![1, 2] bcast_S8192x768_S1x8192x768_1_2 (takeRows pe positions)) (ix3 b s d))
    = FloatOps.addf (x (ix3 b s d)) (pe (ix2 s d))
  rw [broadcastInDim_apply _ bcast_S1x8192x768_S4x8192x768_0_1_2 _ (ix3 b s d) (ix3 (0 : Fin 1) s d)
      (fun a => match a with | ⟨0, _⟩ => rfl | ⟨1, _⟩ => rfl | ⟨2, _⟩ => rfl),
    broadcastInDim_apply _ bcast_S8192x768_S1x8192x768_1_2 _ (ix3 (0 : Fin 1) s d) (ix2 s d)
      (fun a => match a with | ⟨0, _⟩ => rfl | ⟨1, _⟩ => rfl),
    takeRows_positions]

end Cert.ReferenceIdeal.RefValue

end
-- ==== Proof.lean ====
/-
  The kernel adds a learned positional table to every batch slice of its input, block by block over a 4 by 4 grid;
  the reference looks the table's rows up at the positions 0, 1, …, 8191 and adds them to the input after repeating
  them over the batch axis. Both compute

      out (b, s, d) = x (b, s, d) + pe (s, d),

  one addition per entry, so the two results agree at every float value and the precondition is never opened.

  * Proof/Spec.lean states that function.
  * Proof/KernelValue.lean: the kernel's result array is that function of its arguments (each grid point writes back its
    block of it, and the sixteen blocks tile the array).
  * Proof/RefRun.lean, Proof/RefTerm.lean: the reference as a list of host operations, its run, and what its result buffer
    holds as one term of the arguments.
  * Proof/RefValue.lean: that term is the same function, because looking rows up at 0, 1, …, 8191 is the identity:
    the positions are not negative (no wrap), lie in the table (no filler), and are not moved by the gather's clamp.
  * Proof/LibHostIndex.lean, LibRowGatherDims.lean (a row gather read at an entry), LibAllTrue.lean (an all-ones `and`
    reduction; an unwrapped nonnegative index word) and LibTypedRefs.lean (transport along a typed reference's type
    equation) are general lemmas.

  The three frames are the programs' generated runs (the reference's with its result forgotten); the idealization
  rewrote nothing, so `preserves` is trivial.
-/
import proofs.«165205_g22016002359764_cont_8to1_854_6_alg».proof.Defs
import proofs.«165205_g22016002359764_cont_8to1_854_6_alg».proof.Proof.Gen.Kernel
import proofs.«165205_g22016002359764_cont_8to1_854_6_alg».proof.Proof.Gen.Kernel.Skeleton
import proofs.«165205_g22016002359764_cont_8to1_854_6_alg».proof.Proof.Gen.Kernel.Launch
import proofs.«165205_g22016002359764_cont_8to1_854_6_alg».proof.Proof.Gen.Kernel.Points
import proofs.«165205_g22016002359764_cont_8to1_854_6_alg».proof.Proof.Gen.Kernel.Frame
import proofs.«165205_g22016002359764_cont_8to1_854_6_alg».proof.Proof.Gen.KernelIdeal
import proofs.«165205_g22016002359764_cont_8to1_854_6_alg».proof.Proof.Gen.KernelIdeal.Skeleton
import proofs.«165205_g22016002359764_cont_8to1_854_6_alg».proof.Proof.Gen.KernelIdeal.Launch
import proofs.«165205_g22016002359764_cont_8to1_854_6_alg».proof.Proof.Gen.KernelIdeal.Points
import proofs.«165205_g22016002359764_cont_8to1_854_6_alg».proof.Proof.Gen.KernelIdeal.Frame
import proofs.«165205_g22016002359764_cont_8to1_854_6_alg».proof.Proof.Gen.KernelIdeal.Value
import proofs.«165205_g22016002359764_cont_8to1_854_6_alg».proof.Proof.Gen.ReferenceIdeal
import proofs.«165205_g22016002359764_cont_8to1_854_6_alg».proof.Proof.Gen.Pre_finite_inputs
import proofs.«165205_g22016002359764_cont_8to1_854_6_alg».proof.Proof.KernelValue
import proofs.«165205_g22016002359764_cont_8to1_854_6_alg».proof.Proof.RefTerm
import proofs.«165205_g22016002359764_cont_8to1_854_6_alg».proof.Proof.RefValue
import Idealize.ShloMosaic.Adequacy
import Idealize.ShloMosaic.Init

noncomputable section

namespace Cert.Proof

open Idealize.ShloMosaic Idealize.ShloMosaic.TcCoe Idealize.SL.Sem

/-- The kernel's program as printed runs, and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what the result buffer holds forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on x and pe, the kernel's result array and the reference's result buffer both end at
    x with the table added to every batch slice. -/
theorem algebraic : Cert.algebraic_KernelIdeal_ReferenceIdeal := by
  intro m ρ m' ρ' _ hagree
  refine ⟨_, Cert.KernelIdeal.WholeArray.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
